-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S3x128 .f32) (main_arg10 : FVec F S3 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S3x128 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : FVec F S128 .f32) (main_arg8 : FVec F S128x128 .f32) (main_arg9 : FVec F S3x128 .f32) (main_arg10 : FVec F S3 .f32) (main_arg11 : IVec S2x600000 32) (main_arg12 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S32x128 : Shape := ⟨2, ![32, 128]⟩
abbrev S32 : Shape := ⟨1, ![32]⟩
abbrev S32x1 : Shape := ⟨2, ![32, 1]⟩
abbrev S128x3 : Shape := ⟨2, ![128, 3]⟩
abbrev S32x3 : Shape := ⟨2, ![32, 3]⟩
abbrev S1x3 : Shape := ⟨2, ![1, 3]⟩

abbrev nBuf : Space → Nat
  | .hbm => 96
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S3x128, .f32⟩
  | .hbm, ⟨10, _⟩ => ⟨S3, .f32⟩
  | .hbm, ⟨11, _⟩ => ⟨S2x600000, .i32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .bf16⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .bf16⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S128x128, .f32⟩
  | .hbm, ⟨46, _⟩ => ⟨S128x128, .bf16⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S50000x128, .bf16⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .bf16⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S128x128, .f32⟩
  | .hbm, ⟨70, _⟩ => ⟨S128x128, .bf16⟩
  | .hbm, ⟨71, _⟩ => ⟨S128x128, .f32⟩
  | .hbm, ⟨72, _⟩ => ⟨S128x128, .bf16⟩
  | .hbm, ⟨73, _⟩ => ⟨S1x128, .f32⟩
  | .hbm, ⟨74, _⟩ => ⟨S50000x128, .f32⟩
  | .hbm, ⟨75, _⟩ => ⟨S_, .f32⟩
  | .hbm, ⟨76, _⟩ => ⟨S32x128, .f32⟩
  | .hbm, ⟨77, _⟩ => ⟨S50000x1, .i32⟩
  | .hbm, ⟨78, _⟩ => ⟨S32x128, .f32⟩
  | .hbm, ⟨79, _⟩ => ⟨S_, .f32⟩
  | .hbm, ⟨80, _⟩ => ⟨S50000, .f32⟩
  | .hbm, ⟨81, _⟩ => ⟨S_, .f32⟩
  | .hbm, ⟨82, _⟩ => ⟨S32, .f32⟩
  | .hbm, ⟨83, _⟩ => ⟨S50000x1, .i32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S32x1, .f32⟩
  | .hbm, ⟨89, _⟩ => ⟨S32x128, .f32⟩
  | .hbm, ⟨90, _⟩ => ⟨S32x128, .f32⟩
  | .hbm, ⟨91, _⟩ => ⟨S128x3, .f32⟩
  | .hbm, ⟨92, _⟩ => ⟨S32x3, .f32⟩
  | .hbm, ⟨93, _⟩ => ⟨S1x3, .f32⟩
  | .hbm, ⟨94, _⟩ => ⟨S32x3, .f32⟩
  | .hbm, ⟨95, _⟩ => ⟨S32x3, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S32x128 : S_.BroadcastsInDim S32x128 (![] : Fin 0 → Fin S32x128.rank)
  bcast_S50000_S50000x1_0 : S50000.BroadcastsInDim S50000x1 (![0] : Fin 1 → Fin S50000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  transposes_S3x128_S128x3_1_0 : S3x128.Transposes [1, 0] S128x3
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x3_S32x3_1_0_0_1_n_n_wf : DotDims.WF S32x128 S128x3 S32x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S3x128 : Shape := ⟨2, ![3, 128]⟩
abbrev S3 : Shape := ⟨1, ![3]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S32x128 : Shape := ⟨2, ![32, 128]⟩
abbrev S32 : Shape := ⟨1, ![32]⟩
abbrev S32x1 : Shape := ⟨2, ![32, 1]⟩
abbrev S128x3 : Shape := ⟨2, ![128, 3]⟩
abbrev S32x3 : Shape := ⟨2, ![32, 3]⟩
abbrev S1x3 : Shape := ⟨2, ![1, 3]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S3x128, .f32⟩
  | .hbm, ⟨10, _⟩ => ⟨S3, .f32⟩
  | .hbm, ⟨11, _⟩ => ⟨S2x600000, .i32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S_, .f32⟩
  | .hbm, ⟨31, _⟩ => ⟨S600000, .f32⟩
  | .hbm, ⟨32, _⟩ => ⟨S_, .f32⟩
  | .hbm, ⟨33, _⟩ => ⟨S50000, .f32⟩
  | .hbm, ⟨34, _⟩ => ⟨S600000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S_, .f32⟩
  | .hbm, ⟨75, _⟩ => ⟨S600000, .f32⟩
  | .hbm, ⟨76, _⟩ => ⟨S_, .f32⟩
  | .hbm, ⟨77, _⟩ => ⟨S50000, .f32⟩
  | .hbm, ⟨78, _⟩ => ⟨S600000x1, .i32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000x1, .f32⟩
  | .hbm, ⟨84, _⟩ => ⟨S50000x128, .f32⟩
  | .hbm, ⟨85, _⟩ => ⟨S50000x128, .f32⟩
  | .hbm, ⟨86, _⟩ => ⟨S128x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S128x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S32x128, .f32⟩
  | .hbm, ⟨99, _⟩ => ⟨S50000x1, .i32⟩
  | .hbm, ⟨100, _⟩ => ⟨S32x128, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S32, .f32⟩
  | .hbm, ⟨105, _⟩ => ⟨S50000x1, .i32⟩
  | .hbm, ⟨106, _⟩ => ⟨S32, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S32x1, .f32⟩
  | .hbm, ⟨111, _⟩ => ⟨S32x128, .f32⟩
  | .hbm, ⟨112, _⟩ => ⟨S32x128, .f32⟩
  | .hbm, ⟨113, _⟩ => ⟨S128x3, .f32⟩
  | .hbm, ⟨114, _⟩ => ⟨S32x3, .f32⟩
  | .hbm, ⟨115, _⟩ => ⟨S1x3, .f32⟩
  | .hbm, ⟨116, _⟩ => ⟨S32x3, .f32⟩
  | .hbm, ⟨117, _⟩ => ⟨S32x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_c_4 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S32x128 : S_.BroadcastsInDim S32x128 (![] : Fin 0 → Fin S32x128.rank)
  bcast_S_S32 : S_.BroadcastsInDim S32 (![] : Fin 0 → Fin S32.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  transposes_S3x128_S128x3_1_0 : S3x128.Transposes [1, 0] S128x3
  bcast_S3_S1x3_1 : S3.BroadcastsInDim S1x3 (![1] : Fin 1 → Fin S1x3.rank)
  bcast_S1x3_S32x3_0_1 : S1x3.BroadcastsInDim S32x3 (![0, 1] : Fin 2 → Fin S32x3.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S32x128_S50000x1_S50000x128_1_0_0_1_wf : ScatterDims.WF S32x128 S50000x1 S50000x128 [1] [0] [0] 1
  scatter_S32_S50000x1_S50000_n_0_0_1_wf : ScatterDims.WF S32 S50000x1 S50000 [] [0] [0] 1
  dot_S32x128_S128x3_S32x3_1_0_0_1_n_n_wf : DotDims.WF S32x128 S128x3 S32x3 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def dot_S32x128_S128x3_S32x3_1_0_0_1_n_n : DotDims S32x128 S128x3 S32x3 where
  lhsContracting := [1]
  rhsContracting := [0]
  lhsNonContracting := [0]
  rhsNonContracting := [1]
  lhsBatch := []
  rhsBatch := []
  wf := dot_S32x128_S128x3_S32x3_1_0_0_1_n_n_wf

class Facts : Prop extends Facts₀ where

variable [Facts]
-- ==== Proof.KernelRun.lean ====
/-
  The idealized kernel's run with its result named.

  The program is five segments: host operations, the first kernel over its ten blocks of nodes, host operations, the second
  kernel over its ten blocks, host operations. The buffers' contents at each boundary are a fold from the launch memory: a stretch
  of host operations applies them in order, a kernel region replaces each of its arrays by what its blocks' write-backs leave and
  keeps every other buffer. Every weakly fair execution terminates without a fault, with every buffer that outlives the kernels at
  the last boundary's contents: in particular the result buffer, and each argument, which nothing writes, as launched.
-/
import proofs.«151611_j34531537060254_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the thirteen arguments as launched. -/
theorem run_result : θ_run defs (onTc (τ := τ) (main (F := F))) ⟨m, fun _ => 0, ρ⟩ (fun r => ∀ c : Dev nD,
      r.2.mem ((c.tc : Thread nD τ).loc main_v68) = W5 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v68 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Hand

end
-- ==== Proof.LibRecipMean.lean ====
/-
  A mean taken with a reciprocal computed once, on the extended reals.

  A count a is guarded as max(a, 1) before it divides a sum. One program divides each sum by the guarded count; another computes
  the reciprocal 1 / max(a, 1) once and multiplies each sum by it. With division read as "the product with the inverse, except by
  zero", the two agree for every extended real x and a, finite or not: max(a, 1) is at least 1, so it is not zero, both quotients
  are products with its inverse, and 1 · c⁻¹ = c⁻¹. (When a is +∞ both sides are x · 0.)
-/
import Idealize.ShloMosaic.PureOps.Ideal

noncomputable section

namespace Cert.LibRecipMean

open Idealize.ShloMosaic

/-- A count guarded from below by 1 is not zero, whatever extended real the count is. -/
theorem max_one_ne_zero (a : EReal) : max a (1 : EReal) ≠ 0 := by
  intro h
  have h1 : (1 : EReal) ≤ max a 1 := le_max_right _ _
  rw [h] at h1
  exact absurd h1 (by norm_num)

/-- The reciprocal of a guarded count is its inverse. -/
theorem recip_eq_inv (a : EReal) : Ideal.div 1 (max a 1) = (max a 1)⁻¹ := by
  rw [Ideal.div, if_neg (max_one_ne_zero a), one_mul]

/-- A product with the reciprocal of max(a, 1) is the quotient by max(a, 1), for every extended real x and a. The constant o is
    the program's literal for one, with the fact that it denotes 1. -/
theorem mul_recip_eq_div (x a o : EReal) (ho : o = 1) : x * Ideal.div o (max a o) = Ideal.div x (max a o) := by
  subst ho
  rw [recip_eq_inv, Ideal.div, if_neg (max_one_ne_zero a)]

end Cert.LibRecipMean

end
-- ==== Proof.SageSpec.lean ====
/-
  One mean-aggregation graph layer on the extended reals, entry by entry.

  A node p has a feature row x(p, ·), the sum s(p, ·) of its in-neighbours' rows and the number a(p) of those neighbours. The
  layer's entry at (p, q) is

      max( ∑ k, mean(p, k) · Wl(q, k)  +  b(q)  +  ∑ k, x(p, k) · Wr(q, k),  0 ),     mean(p, k) = s(p, k) / max(a(p), 1).

  Two arrangements of it are compared here. In the first the mean is the product of s(p, k) with the reciprocal 1 / max(a(p), 1),
  computed once per node, the two matrix products are added before the bias, and the weights are held transposed (entry (k, q)).
  In the second the mean is a quotient, the bias is added to the first product, and the weights are held as given (entry (q, k)).

  They agree on every extended real: max(a, 1) is at least 1, hence not zero, so both the quotient s / max(a, 1) and the reciprocal
  1 / max(a, 1) are products with the inverse of max(a, 1) and 1 · c⁻¹ = c⁻¹ (Proof/LibRecipMean.lean); the rest is the
  commutativity and associativity of addition. Nothing here needs an entry to be finite.
-/
import Idealize.ShloMosaic.PureOps.Ideal
import Idealize.ShloMosaic.Lib.ValueIdx
import proofs.«151611_j34531537060254_2_alg».proof.Proof.LibRecipMean

noncomputable section

namespace Cert.SageSpec

open Idealize.ShloMosaic Idealize.ShloMosaic.ValueIdx

/-- The layer's entry for one node at output column q, first arrangement: s and x are the node's two rows, ci the node's
    reciprocal count, WlT and WrT the transposed weights, b the bias, z the floor of the rectifier. -/
def sageRow (z : EReal) (s x : Fin 128 → EReal) (ci : EReal) (WlT WrT : (⟨2, ![128, 128]⟩ : Shape).Idx → EReal)
    (b : Fin 128 → EReal) (q : Fin 128) : EReal :=
  max (((∑ k : Fin 128, (s k * ci) * WlT (ix2 k q)) + ∑ k : Fin 128, x k * WrT (ix2 k q)) + b q) z

/-- A rectified linear layer's entry for one node at output column q: h the node's row, WT the transposed weights. -/
def linRow (z : EReal) (h : Fin 128 → EReal) (WT : (⟨2, ![128, 128]⟩ : Shape).Idx → EReal) (b : Fin 128 → EReal)
    (q : Fin 128) : EReal :=
  max ((∑ k : Fin 128, h k * WT (ix2 k q)) + b q) z

/-- The first arrangement of the layer's entry is the second. -/
theorem sageRow_eq (z o : EReal) (ho : o = 1) (s x : Fin 128 → EReal) (a : EReal)
    (WlT WrT Wl Wr : (⟨2, ![128, 128]⟩ : Shape).Idx → EReal) (b : Fin 128 → EReal) (q : Fin 128)
    (hl : ∀ k : Fin 128, WlT (ix2 k q) = Wl (ix2 q k)) (hr : ∀ k : Fin 128, WrT (ix2 k q) = Wr (ix2 q k)) :
    sageRow z s x (Ideal.div o (max a o)) WlT WrT b q
      = max (((∑ k : Fin 128, Ideal.div (s k) (max a o) * Wl (ix2 q k)) + b q) + ∑ k : Fin 128, x k * Wr (ix2 q k)) z := by
  unfold sageRow
  rw [add_right_comm]
  have e1 : (∑ k : Fin 128, (s k * Ideal.div o (max a o)) * WlT (ix2 k q))
      = ∑ k : Fin 128, Ideal.div (s k) (max a o) * Wl (ix2 q k) :=
    Finset.sum_congr rfl fun k _ => by rw [Cert.LibRecipMean.mul_recip_eq_div _ _ _ ho, hl]
  have e2 : (∑ k : Fin 128, x k * WrT (ix2 k q)) = ∑ k : Fin 128, x k * Wr (ix2 q k) :=
    Finset.sum_congr rfl fun k _ => by rw [hr]
  rw [e1, e2]

/-- The rectified linear layer's entry with the weights held as given. -/
theorem linRow_eq (z : EReal) (h : Fin 128 → EReal) (WT W : (⟨2, ![128, 128]⟩ : Shape).Idx → EReal) (b : Fin 128 → EReal)
    (q : Fin 128) (hw : ∀ k : Fin 128, WT (ix2 k q) = W (ix2 q k)) :
    linRow z h WT b q = max ((∑ k : Fin 128, h k * W (ix2 q k)) + b q) z := by
  unfold linRow
  have e : (∑ k : Fin 128, h k * WT (ix2 k q)) = ∑ k : Fin 128, h k * W (ix2 q k) :=
    Finset.sum_congr rfl fun k _ => by rw [hw]
  rw [e]

end Cert.SageSpec

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.BodyRows.lean ====
/-
  The two kernel bodies, entry by entry.

  Each body works on a block of 5000 nodes. From the block of neighbour sums s, the column of reciprocal counts ci and the block of
  features x it forms the rows s(r, ·) · ci(r), multiplies them by the first (transposed) weight matrix, adds the product of the
  features with the second, adds the bias row and takes the maximum with zero: at row r and column q that is the layer's entry of
  node r in the first arrangement. It reads row r of the two blocks, the reciprocal count of r, and nothing of any other row.
  The first body goes on with a rectified linear layer of that result; its entry at (r, q) is the linear layer's entry over the
  128 entries of node r just computed. The changes of float format in between are the identity on extended reals.
-/
import proofs.«151611_j34531537060254_2_alg».proof.Proof.Gen.KernelIdeal.Skeleton
import proofs.«151611_j34531537060254_2_alg».proof.Proof.SageSpec
import proofs.«151611_j34531537060254_2_alg».proof.Proof.LibMatmulPlain
import proofs.«151611_j34531537060254_2_alg».proof.Proof.LibRowStat
import Idealize.ShloMosaic.Lib.ValueLayout
import Idealize.ShloMosaic.Lib.Pipeline.Value

noncomputable section

namespace Cert.BodyRows

open Idealize.ShloMosaic Idealize.ShloMosaic.ValueIdx Cert.KernelIdeal Cert.KernelIdeal.Gen Cert.SageSpec

/-- The rows of sums scaled by the reciprocal counts, times a weight matrix, into the zero accumulator: at (r, q) the sum over k
    of (s(r, k) · ci(r)) · W(k, q). -/
theorem scaled_product_apply (s : FVec Ideal S5000x128 .f32) (ci : FVec Ideal S5000x1 .f32) (w : FVec Ideal S128x128 .bf16)
    (r : Fin 5000) (q : Fin 128) :
    matmul dot_S5000x128_S128x128_S5000x128_1_0_0_1_n_n none
        (truncf .bf16 (mulf s (broadcastTo S5000x128 ci broadcasts_S5000x1_S5000x128)) bitsLt_bf16_f32) w
        (constant S5000x128 .f32 0x00000000#32) (ix2 r q)
      = ∑ k : Fin 128, (s (ix2 r k) * ci (ix2 r (0 : Fin 1))) * w (ix2 k q) := by
  refine (Cert.LibMatmulPlain.matmul_plain_zero_apply none _ w r q).trans ?_
  refine Finset.sum_congr rfl fun k _ => ?_
  rw [truncf_apply, mulf_apply, Cert.LibRowStat.broadcastTo_a1_ab_apply]

/-- A block of rows, its format changed, times a weight matrix, into the zero accumulator: at (r, q) the sum over k of
    x(r, k) · W(k, q). -/
theorem product_apply (x : FVec Ideal S5000x128 .f32) (w : FVec Ideal S128x128 .bf16) (r : Fin 5000) (q : Fin 128) :
    matmul dot_S5000x128_S128x128_S5000x128_1_0_0_1_n_n none (truncf .bf16 x bitsLt_bf16_f32) w
        (constant S5000x128 .f32 0x00000000#32) (ix2 r q)
      = ∑ k : Fin 128, x (ix2 r k) * w (ix2 k q) := by
  refine (Cert.LibMatmulPlain.matmul_plain_zero_apply none _ w r q).trans ?_
  refine Finset.sum_congr rfl fun k _ => ?_
  rw [truncf_apply]

/-- The part the two bodies share: the graph layer of a block, as one array. -/
def sagePart (s : FVec Ideal S5000x128 .f32) (ci : FVec Ideal S5000x1 .f32) (x : FVec Ideal S5000x128 .f32)
    (wl wr : FVec Ideal S128x128 .bf16) (b : FVec Ideal S1x128 .f32) : FVec Ideal S5000x128 .f32 :=
  maximumf
    (addf
      (addf
        (matmul dot_S5000x128_S128x128_S5000x128_1_0_0_1_n_n none
          (truncf .bf16 (mulf s (broadcastTo S5000x128 ci broadcasts_S5000x1_S5000x128)) bitsLt_bf16_f32) wl
          (constant S5000x128 .f32 0x00000000#32))
        (matmul dot_S5000x128_S128x128_S5000x128_1_0_0_1_n_n none (truncf .bf16 x bitsLt_bf16_f32) wr
          (constant S5000x128 .f32 0x00000000#32)))
      (broadcastTo S5000x128 b broadcasts_S1x128_S5000x128))
    (broadcast S5000x128 (Scalar.ofBits (F := Ideal) .f32 0x00000000#32))

/-- The shared part at (r, q) is the layer's entry of node r at column q. -/
theorem sagePart_apply (s : FVec Ideal S5000x128 .f32) (ci : FVec Ideal S5000x1 .f32) (x : FVec Ideal S5000x128 .f32)
    (wl wr : FVec Ideal S128x128 .bf16) (b : FVec Ideal S1x128 .f32) (r : Fin 5000) (q : Fin 128) :
    sagePart s ci x wl wr b (ix2 r q)
      = sageRow (Ideal.ofBits .f32 0x00000000#32) (fun k => s (ix2 r k)) (fun k => x (ix2 r k)) (ci (ix2 r (0 : Fin 1))) wl wr
          (fun j => b (ix2 (0 : Fin 1) j)) q := by
  unfold sagePart sageRow
  rw [maximumf_apply, addf_apply, addf_apply, scaled_product_apply, product_apply, broadcastTo_1b_ab_apply, broadcast_apply]
  rfl

/-- The second body's stored value is the shared part of its six loaded blocks. -/
theorem k1_pay1_eq (v0 : Vec Ideal S5000x128 .f32) (v2 : Vec Ideal S5000x1 .f32) (v7 : Vec Ideal S5000x128 .f32)
    (v10 v12 : Vec Ideal S128x128 .bf16) (v14 : Vec Ideal S1x128 .f32) :
    k1_pay1 (F := Ideal) v0 v2 v7 v10 v12 v14 = sagePart v0 v2 v7 v10 v12 v14 := by
  unfold k1_pay1 sagePart
  simp only [shapeCast_self] <;> rfl

/-- The first body's stored value: the rectified linear layer of the shared part. -/
theorem k0_pay1_eq (v0 : Vec Ideal S5000x128 .f32) (v2 : Vec Ideal S5000x1 .f32) (v7 : Vec Ideal S5000x128 .f32)
    (v9 v11 : Vec Ideal S128x128 .bf16) (v13 : Vec Ideal S1x128 .f32) (v23 : Vec Ideal S128x128 .bf16) (v25 : Vec Ideal S1x128 .f32) :
    k0_pay1 (F := Ideal) v0 v2 v7 v9 v11 v13 v23 v25
      = maximumf
          (addf
            (matmul (φ₂ := .bf16) dot_S5000x128_S128x128_S5000x128_1_0_0_1_n_n none
              (truncf .bf16 (sagePart v0 v2 v7 v9 v11 v13) bitsLt_bf16_f32) v23 (constant S5000x128 .f32 0x00000000#32))
            (broadcastTo S5000x128 v25 broadcasts_S1x128_S5000x128))
          (broadcast S5000x128 (Scalar.ofBits (F := Ideal) .f32 0x00000000#32)) := by
  unfold k0_pay1 sagePart
  simp only [shapeCast_self] <;> rfl

/-- The second body at (r, q): the layer's entry of node r of the block. -/
theorem k1_pay1_apply (v0 : Vec Ideal S5000x128 .f32) (v2 : Vec Ideal S5000x1 .f32) (v7 : Vec Ideal S5000x128 .f32)
    (v10 v12 : Vec Ideal S128x128 .bf16) (v14 : Vec Ideal S1x128 .f32) (r : Fin 5000) (q : Fin 128) :
    k1_pay1 (F := Ideal) v0 v2 v7 v10 v12 v14 (ix2 r q)
      = sageRow (Ideal.ofBits .f32 0x00000000#32) (fun k => v0 (ix2 r k)) (fun k => v7 (ix2 r k)) (v2 (ix2 r (0 : Fin 1))) v10 v12
          (fun j => v14 (ix2 (0 : Fin 1) j)) q := by
  rw [k1_pay1_eq]
  exact sagePart_apply v0 v2 v7 v10 v12 v14 r q

/-- The first body at (r, q): the linear layer's entry over node r's 128 layer entries. -/
theorem k0_pay1_apply (v0 : Vec Ideal S5000x128 .f32) (v2 : Vec Ideal S5000x1 .f32) (v7 : Vec Ideal S5000x128 .f32)
    (v9 v11 : Vec Ideal S128x128 .bf16) (v13 : Vec Ideal S1x128 .f32) (v23 : Vec Ideal S128x128 .bf16) (v25 : Vec Ideal S1x128 .f32)
    (r : Fin 5000) (q : Fin 128) :
    k0_pay1 (F := Ideal) v0 v2 v7 v9 v11 v13 v23 v25 (ix2 r q)
      = linRow (Ideal.ofBits .f32 0x00000000#32)
          (fun k => sageRow (Ideal.ofBits .f32 0x00000000#32) (fun j => v0 (ix2 r j)) (fun j => v7 (ix2 r j)) (v2 (ix2 r (0 : Fin 1)))
            v9 v11 (fun j => v13 (ix2 (0 : Fin 1) j)) k)
          v23 (fun j => v25 (ix2 (0 : Fin 1) j)) q := by
  rw [k0_pay1_eq]
  unfold linRow
  rw [maximumf_apply, addf_apply, product_apply, broadcastTo_1b_ab_apply, broadcast_apply]
  have e : (∑ k : Fin 128, sagePart v0 v2 v7 v9 v11 v13 (ix2 r k) * v23 (ix2 k q))
      = ∑ k : Fin 128, sageRow (Ideal.ofBits .f32 0x00000000#32) (fun j => v0 (ix2 r j)) (fun j => v7 (ix2 r j))
          (v2 (ix2 r (0 : Fin 1))) v9 v11 (fun j => v13 (ix2 (0 : Fin 1) j)) k * v23 (ix2 k q) :=
    Finset.sum_congr rfl fun k _ => by rw [sagePart_apply]
  rw [e]
  rfl

end Cert.BodyRows

end
-- ==== Proof.RegionValue.lean ====
/-
  From blocks to arrays: what each kernel region leaves in its output array.

  A region runs its body once per block of 5000 nodes; point t reads rows 5000 t … 5000 t + 4999 of the three node arrays (neighbour
  sums, reciprocal counts, features), the whole of each weight matrix and bias row, and writes back rows 5000 t … 5000 t + 4999 of the
  output. The body's entry at row r of the block depends on row r of the block alone, which is node 5000 t + r of the array; so what
  point t writes back is block t of ONE array, the layer applied node by node to the region's entry arrays. The ten blocks cover the
  50000 rows, so that array is what the output ends holding. This is stated for any entry contents V: the first region is entered
  from the contents the host operations before it leave, the second from those after the operations between the two.
-/
import proofs.«151611_j34531537060254_2_alg».proof.Proof.Gen.KernelIdeal.Frame
import proofs.«151611_j34531537060254_2_alg».proof.Proof.BodyRows
import Idealize.ShloMosaic.Lib.Pipeline.Value

set_option maxRecDepth 16384

noncomputable section

namespace Cert.KernelIdeal.Hand

open Cert.KernelIdeal Cert.KernelIdeal.Gen Cert.SageSpec Cert.BodyRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The graph layer applied node by node: from the array of neighbour sums A0, the column of reciprocal counts A1, the features A2,
    the transposed weights A3 and A5 and the bias row A4, the array whose entry at node p, column q is the layer's entry. -/
def layer1 (A0 : S50000x128.Idx → EReal) (A1 : S50000x1.Idx → EReal) (A2 : S50000x128.Idx → EReal) (A3 : S128x128.Idx → EReal)
    (A4 : S1x128.Idx → EReal) (A5 : S128x128.Idx → EReal) : S50000x128.Idx → EReal :=
  fun i => sageRow (Ideal.ofBits .f32 0x00000000#32) (fun k => A0 (ix2 (i 0 : Fin 50000) k)) (fun k => A2 (ix2 (i 0 : Fin 50000) k))
    (A1 (ix2 (i 0 : Fin 50000) (0 : Fin 1))) A3 A5 (fun j => A4 (ix2 (0 : Fin 1) j)) (i 1 : Fin 128)

/-- The graph layer followed by the rectified linear layer (transposed weights A6, bias row A7), node by node. -/
def layer0 (A0 : S50000x128.Idx → EReal) (A1 : S50000x1.Idx → EReal) (A2 : S50000x128.Idx → EReal) (A3 : S128x128.Idx → EReal)
    (A4 : S1x128.Idx → EReal) (A5 : S128x128.Idx → EReal) (A6 : S128x128.Idx → EReal) (A7 : S1x128.Idx → EReal) :
    S50000x128.Idx → EReal :=
  fun i => linRow (Ideal.ofBits .f32 0x00000000#32)
    (fun k => sageRow (Ideal.ofBits .f32 0x00000000#32) (fun j => A0 (ix2 (i 0 : Fin 50000) j)) (fun j => A2 (ix2 (i 0 : Fin 50000) j))
      (A1 (ix2 (i 0 : Fin 50000) (0 : Fin 1))) A3 A5 (fun j => A4 (ix2 (0 : Fin 1) j)) k)
    A6 (fun j => A7 (ix2 (0 : Fin 1) j)) (i 1 : Fin 128)

/-! ## The first region: the graph layer and the linear layer -/

/-- The printed index maps, decided over the ten grid points: the node windows and the output window take block row t, the
    weight and bias windows stay at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Window 0's block at point t is rows 5000 t … 5000 t + 4999 of its array. -/
theorem iblk0_0_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_v24 : S50000x128.Idx → EReal) i := by
  obtain ⟨e0, e1, -⟩ := idx_facts0 t
  unfold iblk0
  rw [View.read_apply]
  show V c main_v24 _ = V c main_v24 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- Window 1's block at point t is entries 5000 t … 5000 t + 4999 of the column of reciprocal counts. -/
theorem iblk0_1_apply (c : Dev nD) (t : Fin cfg0.N) (y : S5000x1.Idx) (i : S50000x1.Idx)
    (h0 : (i 0).val = t.val * 5000 + (y 0).val) :
    (iblk0 V c 1 t : Vec Ideal S5000x1 .f32) y = (V c main_v12 : S50000x1.Idx → EReal) i := by
  obtain ⟨-, -, e0, e1, -⟩ := idx_facts0 t
  unfold iblk0
  rw [View.read_apply]
  show V c main_v12 _ = V c main_v12 _
  congr 1
  funext a
  apply Fin.ext
  match a with
  | ⟨0, _⟩ => show win0_1.index t 0 * 5000 + 1 * (y 0).val = (i 0).val; rw [e0, h0]; omega
  | ⟨1, _⟩ =>
    show win0_1.index t 1 * 1 + 1 * (y 1).val = (i 1).val
    have hy : (y 1).val < 1 := (y 1).isLt
    have hi : (i 1).val < 1 := (i 1).isLt
    rw [e1]; omega

/-- Window 2's block at point t is rows 5000 t … 5000 t + 4999 of its array. -/
theorem iblk0_2_apply (c : Dev nD) (t : Fin cfg0.N) (y : S5000x128.Idx) (i : S50000x128.Idx)
    (h0 : (i 0).val = t.val * 5000 + (y 0).val) (h1 : (i 1).val = (y 1).val) :
    (iblk0 V c 2 t : Vec Ideal S5000x128 .f32) y = (V c main_arg0 : S50000x128.Idx → EReal) i := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_2.index t 0 * 5000 + 1 * (y 0).val = (i 0).val; rw [e0, h0]; omega
  | ⟨1, _⟩ => show win0_2.index t 1 * 128 + 1 * (y 1).val = (i 1).val; rw [e1, h1]; omega

/-- Window 3's block at every point is its whole array. -/
theorem iblk0_3_eq (c : Dev nD) (t : Fin cfg0.N) :
    (iblk0 V c 3 t : Vec Ideal S128x128 .bf16) = (V c main_v26 : S128x128.Idx → EReal) := by
  obtain ⟨-, -, -, -, -, -, e0, e1, -⟩ := idx_facts0 t
  funext y
  unfold iblk0
  rw [View.read_apply]
  show V c main_v26 _ = V c main_v26 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Window 4's block at every point is its whole array. -/
theorem iblk0_4_eq (c : Dev nD) (t : Fin cfg0.N) :
    (iblk0 V c 4 t : Vec Ideal S1x128 .f32) = (V c main_v31 : S1x128.Idx → EReal) := by
  obtain ⟨-, -, -, -, -, -, -, -, e0, e1, -⟩ := idx_facts0 t
  funext y
  unfold iblk0
  rw [View.read_apply]
  show V c main_v31 _ = V c main_v31 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- Window 5's block at every point is its whole array. -/
theorem iblk0_5_eq (c : Dev nD) (t : Fin cfg0.N) :
    (iblk0 V c 5 t : Vec Ideal S128x128 .bf16) = (V c main_v28 : S128x128.Idx → EReal) := by
  obtain ⟨-, -, -, -, -, -, -, -, -, -, e0, e1, -⟩ := idx_facts0 t
  funext y
  unfold iblk0
  rw [View.read_apply]
  show V c main_v28 _ = V c main_v28 _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-- Window 6's block at every point is its whole array. -/
theorem iblk0_6_eq (c : Dev nD) (t : Fin cfg0.N) :
    (iblk0 V c 6 t : Vec Ideal S128x128 .bf16) = (V c main_v30 : S128x128.Idx → EReal) := by
  obtain ⟨-, -, -, -, -, -, -, -, -, -, -, -, e0, e1, -⟩ := idx_facts0 t
  funext y
  unfold iblk0
  rw [View.read_apply]
  show V c main_v30 _ = V c main_v30 _
  congr 1
  funext a
  apply Fin.ext
  match a with
  | ⟨0, _⟩ => show win0_6.index t 0 * 128 + 1 * (y 0).val = (y 0).val; rw [e0]; omega
  | ⟨1, _⟩ => show win0_6.index t 1 * 128 + 1 * (y 1).val = (y 1).val; rw [e1]; omega

/-- Window 7's block at every point is its whole array. -/
theorem iblk0_7_eq (c : Dev nD) (t : Fin cfg0.N) :
    (iblk0 V c 7 t : Vec Ideal S1x128 .f32) = (V c main_v32 : S1x128.Idx → EReal) := by
  obtain ⟨-, -, -, -, -, -, -, -, -, -, -, -, -, -, e0, e1, -⟩ := idx_facts0 t
  funext y
  unfold iblk0
  rw [View.read_apply]
  show V c main_v32 _ = V c main_v32 _
  congr 1
  funext a
  apply Fin.ext
  match a with
  | ⟨0, _⟩ => show win0_7.index t 0 * 1 + 1 * (y 0).val = (y 0).val; rw [e0]; omega
  | ⟨1, _⟩ => show win0_7.index t 1 * 128 + 1 * (y 1).val = (y 1).val; rw [e1]; omega

/-- The two layers' entry over the rows of block t is their array at the node the block's row r is. -/
theorem layer0_block (c : Dev nD) (t : Fin cfg0.N) (r : Fin 5000) (q : Fin 128) (i : S50000x128.Idx)
    (h0 : (i 0).val = t.val * 5000 + r.val) (h1 : (i 1).val = q.val) :
    linRow (Ideal.ofBits .f32 0x00000000#32)
        (fun k => sageRow (Ideal.ofBits .f32 0x00000000#32) (fun j => (iblk0 V c 0 t : Vec Ideal S5000x128 .f32) (ix2 r j))
          (fun j => (iblk0 V c 2 t : Vec Ideal S5000x128 .f32) (ix2 r j)) ((iblk0 V c 1 t : Vec Ideal S5000x1 .f32) (ix2 r (0 : Fin 1)))
          (iblk0 V c 3 t : Vec Ideal S128x128 .bf16) (iblk0 V c 5 t : Vec Ideal S128x128 .bf16)
          (fun j => (iblk0 V c 4 t : Vec Ideal S1x128 .f32) (ix2 (0 : Fin 1) j)) k)
        (iblk0 V c 6 t : Vec Ideal S128x128 .bf16) (fun j => (iblk0 V c 7 t : Vec Ideal S1x128 .f32) (ix2 (0 : Fin 1) j)) q
      = layer0 (V c main_v24) (V c main_v12) (V c main_arg0) (V c main_v26) (V c main_v31) (V c main_v28) (V c main_v30) (V c main_v32) i := by
  unfold layer0
  have hq : (i 1 : Fin 128) = q := Fin.ext h1
  have e0 : (fun j : Fin 128 => (iblk0 V c 0 t : Vec Ideal S5000x128 .f32) (ix2 r j))
      = fun j : Fin 128 => (V c main_v24 : S50000x128.Idx → EReal) (ix2 (i 0 : Fin 50000) j) :=
    funext fun j => iblk0_0_apply V c t (ix2 r j) (ix2 (i 0 : Fin 50000) j) h0 rfl
  have e2 : (fun j : Fin 128 => (iblk0 V c 2 t : Vec Ideal S5000x128 .f32) (ix2 r j))
      = fun j : Fin 128 => (V c main_arg0 : S50000x128.Idx → EReal) (ix2 (i 0 : Fin 50000) j) :=
    funext fun j => iblk0_2_apply V c t (ix2 r j) (ix2 (i 0 : Fin 50000) j) h0 rfl
  have e1 : (iblk0 V c 1 t : Vec Ideal S5000x1 .f32) (ix2 r (0 : Fin 1))
      = (V c main_v12 : S50000x1.Idx → EReal) (ix2 (i 0 : Fin 50000) (0 : Fin 1)) :=
    iblk0_1_apply V c t (ix2 r (0 : Fin 1)) (ix2 (i 0 : Fin 50000) (0 : Fin 1)) h0
  rw [e0, e2, e1, iblk0_3_eq, iblk0_4_eq, iblk0_5_eq, iblk0_6_eq, iblk0_7_eq, hq]

/-- What point t writes back is block t of the layer's array of the region's entry arrays. -/
theorem flushed0_eq (c : Dev nD) (t : Fin cfg0.N) :
    (dat0 V c).flushed 8 t = ((cfg0.win 8).blk t).view.read (Elt Ideal)
      (layer0 (V c main_v24) (V c main_v12) (V c main_arg0) (V c main_v26) (V c main_v31) (V c main_v28) (V c main_v30) (V c main_v32)) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨r, q, rfl⟩ : ∃ (r : Fin 5000) (q : Fin 128), j = ix2 r q := ⟨j 0, j 1, eq_ix2 j⟩
  obtain ⟨-, -, -, -, -, -, -, -, -, -, -, -, -, -, -, -, e0, e1⟩ := idx_facts0 t
  show k0_pay1 (F := Ideal) (iblk0 V c 0 t) (iblk0 V c 1 t) (iblk0 V c 2 t) (iblk0 V c 3 t) (iblk0 V c 5 t) (iblk0 V c 4 t) (iblk0 V c 6 t) (iblk0 V c 7 t) (ix2 r q) = _
  refine (k0_pay1_apply _ _ _ _ _ _ _ _ r q).trans ?_
  rw [View.read_apply]
  refine layer0_block V c t r q _ ?_ ?_
  · show win0_8.index t 0 * 5000 + 1 * r.val = t.val * 5000 + r.val
    rw [e0]; omega
  · show win0_8.index t 1 * 128 + 1 * q.val = q.val
    rw [e1]; omega

/-- An index of the output array is in point t's block iff each coordinate is in the block's range on its axis. -/
theorem mem_blk0 (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v33).slice (win0_8.rect t)).set ↔ _
  rw [View.set_slice_whole, Rect.mem_set_unit]
  exact Iff.rfl

/-- Every node's row is written back: row p by the point p / 5000. -/
theorem cover0 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : grid0.N = 10 := N_0
  have ht : (i 0).val / 5000 < cfg0.N := by show (i 0).val / 5000 < grid0.N; rw [hN]; omega
  refine ⟨⟨(i 0).val / 5000, ht⟩, flush0_8 _, ?_⟩
  rw [mem_blk0]
  obtain ⟨-, -, -, -, -, -, -, -, -, -, -, -, -, -, -, -, e0, e1⟩ := idx_facts0 ⟨(i 0).val / 5000, ht⟩
  intro a
  match a with
  | ⟨0, _⟩ =>
    show win0_8.index ⟨(i 0).val / 5000, ht⟩ 0 * 5000 ≤ (i 0).val
      ∧ (i 0).val < win0_8.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_8.index ⟨(i 0).val / 5000, ht⟩ 1 * 128 ≤ (i 1).val
      ∧ (i 1).val < win0_8.index ⟨(i 0).val / 5000, ht⟩ 1 * 128 + 128
    rw [e1]
    omega

/-- The region's output array after its ten points: the layer's array of the region's entry arrays. -/
theorem final0 (c : Dev nD) :
    (dat0 V c).arrAt 8 cfg0.N = layer0 (V c main_v24) (V c main_v12) (V c main_arg0) (V c main_v26) (V c main_v31) (V c main_v28) (V c main_v30) (V c main_v32) :=
  (dat0 V c).arrAt_eq_of_cover 8 _ (fun t _ => flushed0_eq V c t) cover0

/-! ## The second region: the graph layer -/

/-- The printed index maps, decided over the ten grid points: the node windows and the output window take block row t, the
    weight and bias windows stay at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t is rows 5000 t … 5000 t + 4999 of its array. -/
theorem iblk1_0_apply (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v45 : S50000x128.Idx → EReal) i := by
  obtain ⟨e0, e1, -⟩ := idx_facts1 t
  unfold iblk1
  rw [View.read_apply]
  show V c main_v45 _ = V c main_v45 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Window 1's block at point t is entries 5000 t … 5000 t + 4999 of the column of reciprocal counts. -/
theorem iblk1_1_apply (c : Dev nD) (t : Fin cfg1.N) (y : S5000x1.Idx) (i : S50000x1.Idx)
    (h0 : (i 0).val = t.val * 5000 + (y 0).val) :
    (iblk1 V c 1 t : Vec Ideal S5000x1 .f32) y = (V c main_v12 : S50000x1.Idx → EReal) i := by
  obtain ⟨-, -, e0, e1, -⟩ := idx_facts1 t
  unfold iblk1
  rw [View.read_apply]
  show V c main_v12 _ = V c main_v12 _
  congr 1
  funext a
  apply Fin.ext
  match a with
  | ⟨0, _⟩ => show win1_1.index t 0 * 5000 + 1 * (y 0).val = (i 0).val; rw [e0, h0]; omega
  | ⟨1, _⟩ =>
    show win1_1.index t 1 * 1 + 1 * (y 1).val = (i 1).val
    have hy : (y 1).val < 1 := (y 1).isLt
    have hi : (i 1).val < 1 := (i 1).isLt
    rw [e1]; omega

/-- Window 2's block at point t is rows 5000 t … 5000 t + 4999 of its array. -/
theorem iblk1_2_apply (c : Dev nD) (t : Fin cfg1.N) (y : S5000x128.Idx) (i : S50000x128.Idx)
    (h0 : (i 0).val = t.val * 5000 + (y 0).val) (h1 : (i 1).val = (y 1).val) :
    (iblk1 V c 2 t : Vec Ideal S5000x128 .f32) y = (V c main_v33 : S50000x128.Idx → EReal) i := by
  obtain ⟨-, -, -, -, e0, e1, -⟩ := idx_facts1 t
  unfold iblk1
  rw [View.read_apply]
  show V c main_v33 _ = V c main_v33 _
  congr 1
  funext a
  apply Fin.ext
  match a with
  | ⟨0, _⟩ => show win1_2.index t 0 * 5000 + 1 * (y 0).val = (i 0).val; rw [e0, h0]; omega
  | ⟨1, _⟩ => show win1_2.index t 1 * 128 + 1 * (y 1).val = (i 1).val; rw [e1, h1]; omega

/-- Window 3's block at every point is its whole array. -/
theorem iblk1_3_eq (c : Dev nD) (t : Fin cfg1.N) :
    (iblk1 V c 3 t : Vec Ideal S128x128 .bf16) = (V c main_v47 : S128x128.Idx → EReal) := by
  obtain ⟨-, -, -, -, -, -, e0, e1, -⟩ := idx_facts1 t
  funext y
  unfold iblk1
  rw [View.read_apply]
  show V c main_v47 _ = V c main_v47 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- Window 4's block at every point is its whole array. -/
theorem iblk1_4_eq (c : Dev nD) (t : Fin cfg1.N) :
    (iblk1 V c 4 t : Vec Ideal S1x128 .f32) = (V c main_v50 : S1x128.Idx → EReal) := by
  obtain ⟨-, -, -, -, -, -, -, -, e0, e1, -⟩ := idx_facts1 t
  funext y
  unfold iblk1
  rw [View.read_apply]
  show V c main_v50 _ = V c main_v50 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- Window 5's block at every point is its whole array. -/
theorem iblk1_5_eq (c : Dev nD) (t : Fin cfg1.N) :
    (iblk1 V c 5 t : Vec Ideal S128x128 .bf16) = (V c main_v49 : S128x128.Idx → EReal) := by
  obtain ⟨-, -, -, -, -, -, -, -, -, -, e0, e1, -⟩ := idx_facts1 t
  funext y
  unfold iblk1
  rw [View.read_apply]
  show V c main_v49 _ = V c main_v49 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-- The layer's entry over the rows of block t is the layer's array at the node the block's row r is. -/
theorem layer1_block (c : Dev nD) (t : Fin cfg1.N) (r : Fin 5000) (q : Fin 128) (i : S50000x128.Idx)
    (h0 : (i 0).val = t.val * 5000 + r.val) (h1 : (i 1).val = q.val) :
    sageRow (Ideal.ofBits .f32 0x00000000#32) (fun j => (iblk1 V c 0 t : Vec Ideal S5000x128 .f32) (ix2 r j))
          (fun j => (iblk1 V c 2 t : Vec Ideal S5000x128 .f32) (ix2 r j)) ((iblk1 V c 1 t : Vec Ideal S5000x1 .f32) (ix2 r (0 : Fin 1)))
          (iblk1 V c 3 t : Vec Ideal S128x128 .bf16) (iblk1 V c 5 t : Vec Ideal S128x128 .bf16)
          (fun j => (iblk1 V c 4 t : Vec Ideal S1x128 .f32) (ix2 (0 : Fin 1) j)) q
      = layer1 (V c main_v45) (V c main_v12) (V c main_v33) (V c main_v47) (V c main_v50) (V c main_v49) i := by
  unfold layer1
  have hq : (i 1 : Fin 128) = q := Fin.ext h1
  have e0 : (fun j : Fin 128 => (iblk1 V c 0 t : Vec Ideal S5000x128 .f32) (ix2 r j))
      = fun j : Fin 128 => (V c main_v45 : S50000x128.Idx → EReal) (ix2 (i 0 : Fin 50000) j) :=
    funext fun j => iblk1_0_apply V c t (ix2 r j) (ix2 (i 0 : Fin 50000) j) h0 rfl
  have e2 : (fun j : Fin 128 => (iblk1 V c 2 t : Vec Ideal S5000x128 .f32) (ix2 r j))
      = fun j : Fin 128 => (V c main_v33 : S50000x128.Idx → EReal) (ix2 (i 0 : Fin 50000) j) :=
    funext fun j => iblk1_2_apply V c t (ix2 r j) (ix2 (i 0 : Fin 50000) j) h0 rfl
  have e1 : (iblk1 V c 1 t : Vec Ideal S5000x1 .f32) (ix2 r (0 : Fin 1))
      = (V c main_v12 : S50000x1.Idx → EReal) (ix2 (i 0 : Fin 50000) (0 : Fin 1)) :=
    iblk1_1_apply V c t (ix2 r (0 : Fin 1)) (ix2 (i 0 : Fin 50000) (0 : Fin 1)) h0
  rw [e0, e2, e1, iblk1_3_eq, iblk1_4_eq, iblk1_5_eq, hq]

/-- What point t writes back is block t of the layer's array of the region's entry arrays. -/
theorem flushed1_eq (c : Dev nD) (t : Fin cfg1.N) :
    (dat1 V c).flushed 6 t = ((cfg1.win 6).blk t).view.read (Elt Ideal)
      (layer1 (V c main_v45) (V c main_v12) (V c main_v33) (V c main_v47) (V c main_v50) (V c main_v49)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  obtain ⟨r, q, rfl⟩ : ∃ (r : Fin 5000) (q : Fin 128), j = ix2 r q := ⟨j 0, j 1, eq_ix2 j⟩
  obtain ⟨-, -, -, -, -, -, -, -, -, -, -, -, e0, e1⟩ := idx_facts1 t
  show k1_pay1 (F := Ideal) (iblk1 V c 0 t) (iblk1 V c 1 t) (iblk1 V c 2 t) (iblk1 V c 3 t) (iblk1 V c 5 t) (iblk1 V c 4 t) (ix2 r q) = _
  refine (k1_pay1_apply _ _ _ _ _ _ r q).trans ?_
  rw [View.read_apply]
  refine layer1_block V c t r q _ ?_ ?_
  · show win1_6.index t 0 * 5000 + 1 * r.val = t.val * 5000 + r.val
    rw [e0]; omega
  · show win1_6.index t 1 * 128 + 1 * q.val = q.val
    rw [e1]; omega

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v51).slice (win1_6.rect t)).set ↔ _
  rw [View.set_slice_whole, Rect.mem_set_unit]
  exact Iff.rfl

/-- Every node's row is written back: row p by the point p / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; rw [hN]; omega
  refine ⟨⟨(i 0).val / 5000, ht⟩, flush1_6 _, ?_⟩
  rw [mem_blk1]
  obtain ⟨-, -, -, -, -, -, -, -, -, -, -, -, e0, e1⟩ := idx_facts1 ⟨(i 0).val / 5000, ht⟩
  intro a
  match a with
  | ⟨0, _⟩ =>
    show win1_6.index ⟨(i 0).val / 5000, ht⟩ 0 * 5000 ≤ (i 0).val
      ∧ (i 0).val < win1_6.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ 1 * 128 ≤ (i 1).val
      ∧ (i 1).val < win1_6.index ⟨(i 0).val / 5000, ht⟩ 1 * 128 + 128
    rw [e1]
    omega

/-- The region's output array after its ten points: the layer's array of the region's entry arrays. -/
theorem final1 (c : Dev nD) :
    (dat1 V c).arrAt 6 cfg1.N = layer1 (V c main_v45) (V c main_v12) (V c main_v33) (V c main_v47) (V c main_v50) (V c main_v49) :=
  (dat1 V c).arrAt_eq_of_cover 6 _ (fun t _ => flushed1_eq V c t) cover1

end Cert.KernelIdeal.Hand

end
-- ==== Proof.KernelValue.lean ====
/-
  The idealized kernel's result as one function of its arguments.

  Reading the boundary contents back from the result: the last stretch of host operations pools the second kernel's node array over
  the graphs and applies the final layer; the second kernel's array is the graph layer applied to its entry arrays; those are, from
  the stretch between the kernels, the neighbour sums of the first kernel's array, the reciprocal counts, that array itself, and the
  second layer's weights transposed and bias as a row; the first kernel's array is the first graph layer followed by the linear layer
  applied to its entry arrays, which the first stretch computes from the arguments. A change of float format is the identity on
  extended reals, so a row gathered from a converted array and widened again is the row gathered from the array. The gathers and
  scatters are kept as the operations they are: both programs apply the same ones to the same index arrays.
-/
import proofs.«151611_j34531537060254_2_alg».proof.Proof.Gen.KernelIdeal.Frame
import proofs.«151611_j34531537060254_2_alg».proof.Proof.RegionValue
import Idealize.ShloMosaic.Lib.StableHlo.Run

set_option maxRecDepth 16384

noncomputable section

namespace Cert.KernelIdeal.Hand

open Cert.KernelIdeal Cert.KernelIdeal.Gen Cert.SageSpec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The edges' source nodes as gather indices: row 0 of the edge list, a negative entry counted from the end. -/
def srcIdx (e : (⟨S2x600000, .i32⟩ : BufTy).Contents (Elt Ideal)) : (⟨S600000x1, .i32⟩ : BufTy).Contents (Elt Ideal) :=
  broadcastInDim S600000x1 ![0] bcast_S600000_S600000x1_0
    (select (cmpi .slt (shapeCast S600000 (extractStridedSlice S1x600000 ![0, 0] e slices_S2x600000_S1x600000_0_0) shapeCasts_S1x600000_S600000)
        (broadcastInDim S600000 ![] bcast_S_S600000 (constantI S_ 32 0#32)))
      (addi (shapeCast S600000 (extractStridedSlice S1x600000 ![0, 0] e slices_S2x600000_S1x600000_0_0) shapeCasts_S1x600000_S600000)
        (broadcastInDim S600000 ![] bcast_S_S600000 (constantI S_ 32 50000#32)))
      (shapeCast S600000 (extractStridedSlice S1x600000 ![0, 0] e slices_S2x600000_S1x600000_0_0) shapeCasts_S1x600000_S600000))

/-- The edges' destination nodes as scatter indices: row 1 of the edge list. -/
def dstIdx (e : (⟨S2x600000, .i32⟩ : BufTy).Contents (Elt Ideal)) : (⟨S600000x1, .i32⟩ : BufTy).Contents (Elt Ideal) :=
  broadcastInDim S600000x1 ![0] bcast_S600000_S600000x1_0
    (shapeCast S600000 (extractStridedSlice S1x600000 ![1, 0] e slices_S2x600000_S1x600000_1_0) shapeCasts_S1x600000_S600000)

/-- The sum, into each node, of the rows of X at the sources of the edges that end there. -/
def agg (X : (⟨S50000x128, .f32⟩ : BufTy).Contents (Elt Ideal)) (e : (⟨S2x600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32)) (dstIdx e)
    (Host.gather gather_S50000x128_S600000x1_S600000x128_1_0_n_n_0_1_1128 X (srcIdx e))

/-- The number of edges that end at each node. -/
def cnt (e : (⟨S2x600000, .i32⟩ : BufTy).Contents (Elt Ideal)) : (⟨S50000, .f32⟩ : BufTy).Contents (Elt Ideal) :=
  Host.scatterAdd (F := Ideal) scatter_S50000_S600000x1_S600000_n_0_0_1
    (broadcastInDim S50000 ![] bcast_S_S50000 (constant (F := Ideal) S_ .f32 0x00000000#32)) (dstIdx e)
    (broadcastInDim S600000 ![] bcast_S_S600000 (constant (F := Ideal) S_ .f32 0x3F800000#32))

/-- The column of reciprocal counts 1 / max(count, 1). -/
def recip (e : (⟨S2x600000, .i32⟩ : BufTy).Contents (Elt Ideal)) : (⟨S50000x1, .f32⟩ : BufTy).Contents (Elt Ideal) :=
  shapeCast S50000x1
    (Host.divf (F := Ideal) (broadcastInDim S50000 ![] bcast_S_S50000 (constant (F := Ideal) S_ .f32 0x3F800000#32))
      (maximumf (cnt e) (broadcastInDim S50000 ![] bcast_S_S50000 (constant (F := Ideal) S_ .f32 0x3F800000#32))))
    shapeCasts_S50000_S50000x1

/-- A weight matrix as a kernel takes it: transposed, in the narrower format. -/
def wT (w : (⟨S128x128, .f32⟩ : BufTy).Contents (Elt Ideal)) : (⟨S128x128, .bf16⟩ : BufTy).Contents (Elt Ideal) :=
  truncf (F := Ideal) .bf16 (transpose S128x128 [1, 0] w transposes_S128x128_S128x128_1_0) bitsLt_bf16_f32

/-- A bias vector as a kernel takes it: one row. -/
def bRow (b : (⟨S128, .f32⟩ : BufTy).Contents (Elt Ideal)) : (⟨S1x128, .f32⟩ : BufTy).Contents (Elt Ideal) :=
  shapeCast S1x128 b shapeCasts_S128_S1x128

/-- Mean pooling over the graphs and the final layer: from the node array h, the nodes' graph numbers g, the final weights w and
    bias bb. -/
def tail (h : (⟨S50000x128, .f32⟩ : BufTy).Contents (Elt Ideal)) (g : (⟨S50000, .i32⟩ : BufTy).Contents (Elt Ideal)) (w : (⟨S3x128, .f32⟩ : BufTy).Contents (Elt Ideal)) (bb : (⟨S3, .f32⟩ : BufTy).Contents (Elt Ideal)) :
    (⟨S32x3, .f32⟩ : BufTy).Contents (Elt Ideal) :=
  addf
    (Host.dotGeneral (F := Ideal) (φ₁ := .f32) (φ₂ := .f32) dot_S32x128_S128x3_S32x3_1_0_0_1_n_n none
      (Host.divf (F := Ideal)
        (Host.scatterAdd (F := Ideal) scatter_S32x128_S50000x1_S50000x128_1_0_0_1
          (broadcastInDim S32x128 ![] bcast_S_S32x128 (constant (F := Ideal) S_ .f32 0x00000000#32))
          (broadcastInDim S50000x1 ![0] bcast_S50000_S50000x1_0 g) h)
        (broadcastInDim S32x128 ![0, 1] bcast_S32x1_S32x128_0_1
          (broadcastInDim S32x1 ![0] bcast_S32_S32x1_0
            (maximumf
              (Host.scatterAdd (F := Ideal) scatter_S32_S50000x1_S50000_n_0_0_1
                (broadcastInDim S32 ![] bcast_S_S32 (constant (F := Ideal) S_ .f32 0x00000000#32))
                (broadcastInDim S50000x1 ![0] bcast_S50000_S50000x1_0 g)
                (broadcastInDim S50000 ![] bcast_S_S50000 (constant (F := Ideal) S_ .f32 0x3F800000#32)))
              (broadcastInDim S32 ![] bcast_S_S32 (constant (F := Ideal) S_ .f32 0x3F800000#32))))))
      (transpose S128x3 [1, 0] w transposes_S3x128_S128x3_1_0))
    (broadcastInDim S32x3 ![0, 1] bcast_S1x3_S32x3_0_1 (broadcastInDim S1x3 ![1] bcast_S3_S1x3_1 bb))

/-- The node array after the first kernel: the first graph layer and the linear layer, of the arguments. -/
def hidden (x0 : (⟨S50000x128, .f32⟩ : BufTy).Contents (Elt Ideal)) (x1 : (⟨S128x128, .f32⟩ : BufTy).Contents (Elt Ideal)) (x2 : (⟨S128, .f32⟩ : BufTy).Contents (Elt Ideal))
    (x3 x4 : (⟨S128x128, .f32⟩ : BufTy).Contents (Elt Ideal)) (x5 : (⟨S128, .f32⟩ : BufTy).Contents (Elt Ideal)) (e : (⟨S2x600000, .i32⟩ : BufTy).Contents (Elt Ideal)) : S50000x128.Idx → EReal :=
  layer0 (agg x0 e) (recip e) x0 (wT x1) (bRow x2) (wT x3) (wT x4) (bRow x5)

/-- The node array after the second kernel: the second graph layer of the first kernel's result. -/
def hidden2 (H : S50000x128.Idx → EReal) (x6 : (⟨S128x128, .f32⟩ : BufTy).Contents (Elt Ideal)) (x7 : (⟨S128, .f32⟩ : BufTy).Contents (Elt Ideal)) (x8 : (⟨S128x128, .f32⟩ : BufTy).Contents (Elt Ideal))
    (e : (⟨S2x600000, .i32⟩ : BufTy).Contents (Elt Ideal)) : S50000x128.Idx → EReal :=
  layer1 (agg H e) (recip e) H (wT x6) (bRow x7) (wT x8)

/-! ## The first region's entry arrays -/

theorem V1_v24 (c : Dev nD) : V1 m ρ c main_v24 = agg (m ((c : Thread nD τ).loc main_arg0)) (m ((c : Thread nD τ).loc main_arg11)) := by
  show StableHlo.after hostOps0 (W0 m ρ c) (Proc.devRef .tc main_v24) = _
  after_results_simp <;> rfl

theorem V1_v12 (c : Dev nD) : V1 m ρ c main_v12 = recip (m ((c : Thread nD τ).loc main_arg11)) := by
  show StableHlo.after hostOps0 (W0 m ρ c) (Proc.devRef .tc main_v12) = _
  after_results_simp <;> rfl

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_v26 (c : Dev nD) : V1 m ρ c main_v26 = wT (m ((c : Thread nD τ).loc main_arg1)) := by
  show StableHlo.after hostOps0 (W0 m ρ c) (Proc.devRef .tc main_v26) = _
  after_results_simp <;> rfl

theorem V1_v31 (c : Dev nD) : V1 m ρ c main_v31 = bRow (m ((c : Thread nD τ).loc main_arg2)) := by
  show StableHlo.after hostOps0 (W0 m ρ c) (Proc.devRef .tc main_v31) = _
  after_results_simp <;> rfl

theorem V1_v28 (c : Dev nD) : V1 m ρ c main_v28 = wT (m ((c : Thread nD τ).loc main_arg3)) := by
  show StableHlo.after hostOps0 (W0 m ρ c) (Proc.devRef .tc main_v28) = _
  after_results_simp <;> rfl

theorem V1_v30 (c : Dev nD) : V1 m ρ c main_v30 = wT (m ((c : Thread nD τ).loc main_arg4)) := by
  show StableHlo.after hostOps0 (W0 m ρ c) (Proc.devRef .tc main_v30) = _
  after_results_simp <;> rfl

theorem V1_v32 (c : Dev nD) : V1 m ρ c main_v32 = bRow (m ((c : Thread nD τ).loc main_arg5)) := by
  show StableHlo.after hostOps0 (W0 m ρ c) (Proc.devRef .tc main_v32) = _
  after_results_simp <;> rfl

/-- The first kernel's output array, of the arguments. -/
theorem W2_v33 (c : Dev nD) : W2 m ρ c (Proc.devRef .tc main_v33)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11)) := by
  refine (W2_arr m ρ c 8).trans ?_
  rw [final0 (V1 m ρ) c, V1_v24, V1_v12, V1_arg0, V1_v26, V1_v31, V1_v28, V1_v30, V1_v32]
  rfl

/-! ## What the second stretch of host operations reads of the first -/

theorem W2_v3 (c : Dev nD) : W2 m ρ c (Proc.devRef .tc main_v3)
    = shapeCast S600000 (extractStridedSlice S1x600000 ![1, 0] (m ((c : Thread nD τ).loc main_arg11)) slices_S2x600000_S1x600000_1_0) shapeCasts_S1x600000_S600000 :=
  (W2_of_ne m ρ c main_v3 (by decide)).trans (by
    show StableHlo.after hostOps0 (W0 m ρ c) (Proc.devRef .tc main_v3) = _
    after_results_simp <;> rfl)

theorem W2_v1 (c : Dev nD) : W2 m ρ c (Proc.devRef .tc main_v1)
    = shapeCast S600000 (extractStridedSlice S1x600000 ![0, 0] (m ((c : Thread nD τ).loc main_arg11)) slices_S2x600000_S1x600000_0_0) shapeCasts_S1x600000_S600000 :=
  (W2_of_ne m ρ c main_v1 (by decide)).trans (by
    show StableHlo.after hostOps0 (W0 m ρ c) (Proc.devRef .tc main_v1) = _
    after_results_simp <;> rfl)

theorem W2_v12 (c : Dev nD) : W2 m ρ c (Proc.devRef .tc main_v12) = recip (m ((c : Thread nD τ).loc main_arg11)) :=
  ((W2_arr m ρ c 1).trans (((dat0 (V1 m ρ) c).arrAt_in 1 rfl _).trans (A_eq0 (V1 m ρ) c 1))).trans (V1_v12 m ρ c)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)

theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)

/-! ## The second region's entry arrays -/

theorem V3_v45 (c : Dev nD) : V3 m ρ c main_v45 = agg (W2 m ρ c (Proc.devRef .tc main_v33)) (m ((c : Thread nD τ).loc main_arg11)) := by
  show StableHlo.after hostOps1 (W2 m ρ c) (Proc.devRef .tc main_v45) = _
  after_results_simp
  rw [W2_v3, W2_v1]
  rfl

theorem V3_v12 (c : Dev nD) : V3 m ρ c main_v12 = recip (m ((c : Thread nD τ).loc main_arg11)) := by
  show StableHlo.after hostOps1 (W2 m ρ c) (Proc.devRef .tc main_v12) = _
  after_results_simp
  exact W2_v12 m ρ c

theorem V3_v33 (c : Dev nD) : V3 m ρ c main_v33 = W2 m ρ c (Proc.devRef .tc main_v33) := by
  show StableHlo.after hostOps1 (W2 m ρ c) (Proc.devRef .tc main_v33) = _
  after_results_simp <;> rfl

theorem V3_v47 (c : Dev nD) : V3 m ρ c main_v47 = wT (m ((c : Thread nD τ).loc main_arg6)) := by
  show StableHlo.after hostOps1 (W2 m ρ c) (Proc.devRef .tc main_v47) = _
  after_results_simp
  rw [W2_arg6]
  rfl

theorem V3_v50 (c : Dev nD) : V3 m ρ c main_v50 = bRow (m ((c : Thread nD τ).loc main_arg7)) := by
  show StableHlo.after hostOps1 (W2 m ρ c) (Proc.devRef .tc main_v50) = _
  after_results_simp
  rw [W2_arg7]
  rfl

theorem V3_v49 (c : Dev nD) : V3 m ρ c main_v49 = wT (m ((c : Thread nD τ).loc main_arg8)) := by
  show StableHlo.after hostOps1 (W2 m ρ c) (Proc.devRef .tc main_v49) = _
  after_results_simp
  rw [W2_arg8]
  rfl

/-- The second kernel's output array, of the arguments. -/
theorem W4_v51 (c : Dev nD) : W4 m ρ c (Proc.devRef .tc main_v51)
    = hidden2 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11))) (m ((c : Thread nD τ).loc main_arg6)) (m ((c : Thread nD τ).loc main_arg7)) (m ((c : Thread nD τ).loc main_arg8)) (m ((c : Thread nD τ).loc main_arg11)) := by
  refine (W4_arr m ρ c 6).trans ?_
  rw [final1 (V3 m ρ) c, V3_v45, V3_v12, V3_v33, V3_v47, V3_v50, V3_v49, W2_v33]
  rfl

theorem W4_arg9 (c : Dev nD) : W4 m ρ c (Proc.devRef .tc main_arg9) = m ((c : Thread nD τ).loc main_arg9) :=
  (W4_of_ne m ρ c main_arg9 (by decide)).trans ((by
    show StableHlo.after hostOps1 (W2 m ρ c) (Proc.devRef .tc main_arg9) = W2 m ρ c (Proc.devRef .tc main_arg9)
    after_results_simp <;> rfl : W3 m ρ c (Proc.devRef .tc main_arg9) = W2 m ρ c (Proc.devRef .tc main_arg9)).trans (W2_arg9 m ρ c))

theorem W4_arg10 (c : Dev nD) : W4 m ρ c (Proc.devRef .tc main_arg10) = m ((c : Thread nD τ).loc main_arg10) :=
  (W4_of_ne m ρ c main_arg10 (by decide)).trans ((by
    show StableHlo.after hostOps1 (W2 m ρ c) (Proc.devRef .tc main_arg10) = W2 m ρ c (Proc.devRef .tc main_arg10)
    after_results_simp <;> rfl : W3 m ρ c (Proc.devRef .tc main_arg10) = W2 m ρ c (Proc.devRef .tc main_arg10)).trans (W2_arg10 m ρ c))

theorem W4_arg12 (c : Dev nD) : W4 m ρ c (Proc.devRef .tc main_arg12) = m ((c : Thread nD τ).loc main_arg12) :=
  (W4_of_ne m ρ c main_arg12 (by decide)).trans ((by
    show StableHlo.after hostOps1 (W2 m ρ c) (Proc.devRef .tc main_arg12) = W2 m ρ c (Proc.devRef .tc main_arg12)
    after_results_simp <;> rfl : W3 m ρ c (Proc.devRef .tc main_arg12) = W2 m ρ c (Proc.devRef .tc main_arg12)).trans (W2_arg12 m ρ c))

/-! ## The result -/

/-- The result buffer at the last boundary: pooling and the final layer of the second kernel's output. -/
theorem result_value (c : Dev nD) : W5 m ρ c (Proc.devRef .tc main_v68)
    = tail (hidden2 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg11))) (m ((c : Thread nD τ).loc main_arg6)) (m ((c : Thread nD τ).loc main_arg7)) (m ((c : Thread nD τ).loc main_arg8)) (m ((c : Thread nD τ).loc main_arg11)))
        (m ((c : Thread nD τ).loc main_arg12)) (m ((c : Thread nD τ).loc main_arg9)) (m ((c : Thread nD τ).loc main_arg10)) := by
  show StableHlo.after hostOps2 (W4 m ρ c) (Proc.devRef .tc main_v68) = _
  after_results_simp
  rw [W4_v51, W4_arg12, W4_arg9, W4_arg10]
  rfl

end Cert.KernelIdeal.Hand

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.RefLayers.lean ====
/-
  The reference's layers as operators on whole arrays, and their entries.

  The reference computes a graph layer from the array S of neighbour sums, the vector a of neighbour counts, the features X, the
  weights Wl, Wr and the bias b as

      max( (S / max(a, 1)) · Wlᵀ + b + X · Wrᵀ, 0 ),

  the count's column repeated across the 128 lanes before the division, the bias row repeated down the 50000 nodes, and a rectified
  linear layer as max( H · Wᵀ + b, 0 ). Read at node p and column q these are the second arrangement of the layer's entry: a matrix
  product with a transposed matrix is the sum over k of the row's entries times W(q, k), the repeated column is its entry at p, the
  repeated row its entry at q. The reference's own three layers are these operators applied to its earlier stages.
-/
import proofs.«151611_j34531537060254_2_alg».proof.Proof.Gen.ReferenceIdeal.Read
import proofs.«151611_j34531537060254_2_alg».proof.Proof.LibColRow
import Idealize.ShloMosaic.Lib.ValueLayout
import Idealize.ShloMosaic.Lib.StackMember
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-- A scalar constant repeated over a shape reads, anywhere, the constant's value. -/
theorem bcast_const_apply (s : Shape) (h : S_.BroadcastsInDim s ![]) (w : BitVec 32) (i : s.Idx) :
    broadcastInDim s ![] h (constant (F := Ideal) S_ .f32 w) i = Ideal.ofBits .f32 w :=
  broadcastInDim_apply _ h (constant (F := Ideal) S_ .f32 w) i (fun a => a.elim0) (fun a => a.elim0)

/-- One graph layer on whole arrays. -/
def sageOp (S X : FVec Ideal S50000x128 .f32) (a : FVec Ideal S50000 .f32)
    (Wl : FVec Ideal S128x128 .f32) (b : FVec Ideal S128 .f32) (Wr : FVec Ideal S128x128 .f32) :
    FVec Ideal S50000x128 .f32 :=
  maximumf
    (addf
      (addf
        (Host.dotGeneral (F := Ideal) (φ₁ := .f32) (φ₂ := .f32) dot_S50000x128_S128x128_S50000x128_1_0_0_1_n_n none
          (Host.divf (F := Ideal) S
            (broadcastInDim S50000x128 ![0, 1] bcast_S50000x1_S50000x128_0_1
              (broadcastInDim S50000x1 ![0] bcast_S50000_S50000x1_0
                (maximumf a (broadcastInDim S50000 ![] bcast_S_S50000 (constant (F := Ideal) S_ .f32 0x3F800000#32))))))
          (transpose S128x128 [1, 0] Wl transposes_S128x128_S128x128_1_0))
        (broadcastInDim S50000x128 ![0, 1] bcast_S1x128_S50000x128_0_1 (broadcastInDim S1x128 ![1] bcast_S128_S1x128_1 b)))
      (Host.dotGeneral (F := Ideal) (φ₁ := .f32) (φ₂ := .f32) dot_S50000x128_S128x128_S50000x128_1_0_0_1_n_n none X
        (transpose S128x128 [1, 0] Wr transposes_S128x128_S128x128_1_0)))
    (broadcastInDim S50000x128 ![] bcast_S_S50000x128 (constant (F := Ideal) S_ .f32 0x00000000#32))

/-- One rectified linear layer on whole arrays. -/
def linOp (H : FVec Ideal S50000x128 .f32) (W : FVec Ideal S128x128 .f32) (b : FVec Ideal S128 .f32) :
    FVec Ideal S50000x128 .f32 :=
  maximumf
    (addf
      (Host.dotGeneral (F := Ideal) (φ₁ := .f32) (φ₂ := .f32) dot_S50000x128_S128x128_S50000x128_1_0_0_1_n_n none H
        (transpose S128x128 [1, 0] W transposes_S128x128_S128x128_1_0))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- A product with a transposed weight matrix at (p, q): the sum over k of A(p, k) · W(q, k). -/
theorem product_transposed_apply (A : FVec Ideal S50000x128 .f32) (W : FVec Ideal S128x128 .f32) (p : Fin 50000) (q : Fin 128) :
    Host.dotGeneral (F := Ideal) (φ₁ := .f32) (φ₂ := .f32) dot_S50000x128_S128x128_S50000x128_1_0_0_1_n_n none A
        (transpose S128x128 [1, 0] W transposes_S128x128_S128x128_1_0) (ix2 p q)
      = ∑ k : Fin 128, A (ix2 p k) * W (ix2 q k) := by
  refine (StackMember.dotGeneral_plain_apply (m := 50000) (n := 128) (k := 128) (φ₁ := .f32) (φ₂ := .f32) none A _ p q).trans ?_
  refine Finset.sum_congr rfl fun k _ => ?_
  rw [transpose_ix2_apply]

/-- The bias repeated down the nodes reads, at (p, q), the bias at q. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [Cert.LibColRow.bcast_1b_ab_apply, Cert.LibColRow.bcast_b_1b_apply]

/-- The graph layer's entry at node p, column q, second arrangement. -/
theorem sageOp_apply (S X : FVec Ideal S50000x128 .f32) (a : FVec Ideal S50000 .f32)
    (Wl : FVec Ideal S128x128 .f32) (b : FVec Ideal S128 .f32) (Wr : FVec Ideal S128x128 .f32) (p : Fin 50000) (q : Fin 128) :
    sageOp S X a Wl b Wr (ix2 p q)
      = max (((∑ k : Fin 128, Ideal.div (S (ix2 p k)) (max (a (ix1 p)) (Ideal.ofBits .f32 0x3F800000#32)) * Wl (ix2 q k)) + b (ix1 q))
          + ∑ k : Fin 128, X (ix2 p k) * Wr (ix2 q k)) (Ideal.ofBits .f32 0x00000000#32) := by
  unfold sageOp
  rw [maximumf_apply, addf_apply, addf_apply, product_transposed_apply, product_transposed_apply, bias_apply, bcast_const_apply]
  have e : (∑ k : Fin 128, Host.divf (F := Ideal) S
        (broadcastInDim S50000x128 ![0, 1] bcast_S50000x1_S50000x128_0_1
          (broadcastInDim S50000x1 ![0] bcast_S50000_S50000x1_0
            (maximumf a (broadcastInDim S50000 ![] bcast_S_S50000 (constant (F := Ideal) S_ .f32 0x3F800000#32))))) (ix2 p k) * Wl (ix2 q k))
      = ∑ k : Fin 128, Ideal.div (S (ix2 p k)) (max (a (ix1 p)) (Ideal.ofBits .f32 0x3F800000#32)) * Wl (ix2 q k) :=
    Finset.sum_congr rfl fun k _ => by
      rw [show Host.divf (F := Ideal) S _ (ix2 p k) = Ideal.div (S (ix2 p k)) _ from rfl, Cert.LibColRow.bcast_a1_ab_apply,
        Cert.LibColRow.bcast_a_a1_apply, maximumf_apply, bcast_const_apply]
  rw [e]

/-- The linear layer's entry at node p, column q. -/
theorem linOp_apply (H : FVec Ideal S50000x128 .f32) (W : FVec Ideal S128x128 .f32) (b : FVec Ideal S128 .f32) (p : Fin 50000) (q : Fin 128) :
    linOp H W b (ix2 p q)
      = max ((∑ k : Fin 128, H (ix2 p k) * W (ix2 q k)) + b (ix1 q)) (Ideal.ofBits .f32 0x00000000#32) := by
  unfold linOp
  rw [maximumf_apply, addf_apply, product_transposed_apply, bias_apply, bcast_const_apply]

/-! ## The reference's three layers -/

section Stages

variable (x0 : (⟨S50000x128, .f32⟩ : BufTy).Contents (Elt Ideal)) (x1 : (⟨S128x128, .f32⟩ : BufTy).Contents (Elt Ideal)) (x2 : (⟨S128, .f32⟩ : BufTy).Contents (Elt Ideal))
  (x3 x4 : (⟨S128x128, .f32⟩ : BufTy).Contents (Elt Ideal)) (x5 : (⟨S128, .f32⟩ : BufTy).Contents (Elt Ideal)) (x6 : (⟨S128x128, .f32⟩ : BufTy).Contents (Elt Ideal))
  (x7 : (⟨S128, .f32⟩ : BufTy).Contents (Elt Ideal)) (x8 : (⟨S128x128, .f32⟩ : BufTy).Contents (Elt Ideal)) (e : (⟨S2x600000, .i32⟩ : BufTy).Contents (Elt Ideal))

/-- The first graph layer. -/
theorem stage_v31 : val_main_v31 (F := Ideal) x0 x1 x2 x3 e
    = sageOp (val_main_v13 (F := Ideal) x0 e) x0 (val_main_v17 (F := Ideal) e) x1 x2 x3 := rfl

/-- The linear layer. -/
theorem stage_v37 : val_main_v37 (F := Ideal) x0 x1 x2 x3 x4 x5 e = linOp (val_main_v31 (F := Ideal) x0 x1 x2 x3 e) x4 x5 := rfl

/-- The second graph layer. -/
theorem stage_v65 : val_main_v65 (F := Ideal) x0 x1 x2 x3 x4 x5 x6 x7 x8 e
    = sageOp (val_main_v47 (F := Ideal) x0 x1 x2 x3 x4 x5 e) (val_main_v37 (F := Ideal) x0 x1 x2 x3 x4 x5 e)
        (val_main_v51 (F := Ideal) e) x6 x7 x8 := rfl

end Stages

end Cert.ReferenceIdeal.Hand

end
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.Bridge.lean ====
/-
  The kernel's result and the reference's are one function of the arguments.

  Both programs gather the features at the edges' sources and sum them into the edges' destinations, count the edges into each node,
  apply a graph layer, a rectified linear layer, gather and sum again, apply a second graph layer, pool over the graphs and apply
  the final layer. The gathers, the sums into nodes, the counts, the pooling and the final layer are the same operations applied to
  the same index arrays in both, so they are compared as whole arrays and never opened. What differs is inside the graph layers: the
  kernel multiplies the neighbour sums by a reciprocal count computed once, adds its two matrix products before the bias and takes
  its weights transposed and in a narrower format; the reference divides, adds the bias first and transposes inside the product.
  Entry by entry these are the two arrangements of one expression, equal on all extended reals (max(count, 1) is not zero).
-/
import proofs.«151611_j34531537060254_2_alg».proof.Proof.KernelValue
import proofs.«151611_j34531537060254_2_alg».proof.Proof.RefLayers
import proofs.«151611_j34531537060254_2_alg».proof.Proof.SageSpec
import proofs.«151611_j34531537060254_2_alg».proof.Proof.LibColRow
import proofs.«151611_j34531537060254_2_alg».proof.Proof.LibF32Literals
import Idealize.ShloMosaic.Lib.ValueLayout

set_option maxRecDepth 16384

noncomputable section

namespace Cert.Bridge

open Idealize.ShloMosaic Idealize.ShloMosaic.ValueIdx
open Cert.SageSpec
open Cert.KernelIdeal.Hand (agg cnt recip wT bRow layer0 layer1 tail hidden hidden2)
open Cert.ReferenceIdeal.Hand (sageOp linOp sageOp_apply linOp_apply stage_v31 stage_v37 stage_v65)
open Cert.ReferenceIdeal.Read

/-! ## The kernel-side arrays at an index -/

/-- The reciprocal count of node p. -/
theorem recip_apply (e : (⟨Cert.KernelIdeal.S2x600000, .i32⟩ : BufTy).Contents (Elt Ideal)) (p : Fin 50000) :
    recip e (ix2 p (0 : Fin 1))
      = Ideal.div (Ideal.ofBits .f32 0x3F800000#32) (max (cnt e (ix1 p)) (Ideal.ofBits .f32 0x3F800000#32)) := by
  have h1 : broadcastInDim Cert.KernelIdeal.S50000 ![] Cert.KernelIdeal.Gen.bcast_S_S50000
      (constant (F := Ideal) Cert.KernelIdeal.S_ .f32 0x3F800000#32) (ix1 p) = Ideal.ofBits .f32 0x3F800000#32 :=
    Cert.ReferenceIdeal.Hand.bcast_const_apply _ _ _ _
  have hdiv : ∀ (a b : FVec Ideal Cert.KernelIdeal.S50000 .f32) (i : Cert.KernelIdeal.S50000.Idx),
      Host.divf (F := Ideal) a b i = Ideal.div (a i) (b i) := fun _ _ _ => rfl
  unfold recip
  rw [Cert.LibColRow.shapeCast_a_a1_apply, hdiv, maximumf_apply, h1]

/-- A transposed, narrowed weight matrix at (k, q) is the matrix at (q, k). -/
theorem wT_apply (w : (⟨Cert.KernelIdeal.S128x128, .f32⟩ : BufTy).Contents (Elt Ideal)) (k q : Fin 128) : wT w (ix2 k q) = w (ix2 q k) := by
  unfold wT
  rw [truncf_apply, transpose_ix2_apply]

/-- A bias row at (0, j) is the bias at j. -/
theorem bRow_apply (b : (⟨Cert.KernelIdeal.S128, .f32⟩ : BufTy).Contents (Elt Ideal)) (j : Fin 128) : bRow b (ix2 (0 : Fin 1) j) = b (ix1 j) := by
  unfold bRow
  rw [shapeCast_a_1a_apply]

/-! ## The layers -/

/-- The kernel's graph layer is the reference's, as arrays: at every node and column the first arrangement of the entry is the
    second. -/
theorem layer1_eq (S X : (⟨Cert.KernelIdeal.S50000x128, .f32⟩ : BufTy).Contents (Elt Ideal)) (e : (⟨Cert.KernelIdeal.S2x600000, .i32⟩ : BufTy).Contents (Elt Ideal))
    (Wl : (⟨Cert.KernelIdeal.S128x128, .f32⟩ : BufTy).Contents (Elt Ideal)) (b : (⟨Cert.KernelIdeal.S128, .f32⟩ : BufTy).Contents (Elt Ideal)) (Wr : (⟨Cert.KernelIdeal.S128x128, .f32⟩ : BufTy).Contents (Elt Ideal)) :
    layer1 S (recip e) X (wT Wl) (bRow b) (wT Wr) = sageOp S X (cnt e) Wl b Wr := by
  funext i
  obtain ⟨p, q, rfl⟩ : ∃ (p : Fin 50000) (q : Fin 128), i = ix2 p q := ⟨i 0, i 1, eq_ix2 i⟩
  rw [sageOp_apply]
  show sageRow (Ideal.ofBits .f32 0x00000000#32) (fun k => S (ix2 p k)) (fun k => X (ix2 p k)) (recip e (ix2 p (0 : Fin 1)))
      (wT Wl) (wT Wr) (fun j => bRow b (ix2 (0 : Fin 1) j)) q = _
  rw [recip_apply, show (fun j : Fin 128 => bRow b (ix2 (0 : Fin 1) j)) = fun j => b (ix1 j) from funext fun j => bRow_apply b j]
  exact sageRow_eq _ _ Cert.LibF32Literals.ofBits_one _ _ _ (wT Wl) (wT Wr) Wl Wr _ q (fun k => wT_apply Wl k q) (fun k => wT_apply Wr k q)

/-- The kernel's graph layer followed by its linear layer is the reference's, as arrays. -/
theorem layer0_eq (S X : (⟨Cert.KernelIdeal.S50000x128, .f32⟩ : BufTy).Contents (Elt Ideal)) (e : (⟨Cert.KernelIdeal.S2x600000, .i32⟩ : BufTy).Contents (Elt Ideal))
    (Wl : (⟨Cert.KernelIdeal.S128x128, .f32⟩ : BufTy).Contents (Elt Ideal)) (b : (⟨Cert.KernelIdeal.S128, .f32⟩ : BufTy).Contents (Elt Ideal)) (Wr W1 : (⟨Cert.KernelIdeal.S128x128, .f32⟩ : BufTy).Contents (Elt Ideal)) (b1 : (⟨Cert.KernelIdeal.S128, .f32⟩ : BufTy).Contents (Elt Ideal)) :
    layer0 S (recip e) X (wT Wl) (bRow b) (wT Wr) (wT W1) (bRow b1) = linOp (sageOp S X (cnt e) Wl b Wr) W1 b1 := by
  funext i
  obtain ⟨p, q, rfl⟩ : ∃ (p : Fin 50000) (q : Fin 128), i = ix2 p q := ⟨i 0, i 1, eq_ix2 i⟩
  rw [linOp_apply]
  show linRow (Ideal.ofBits .f32 0x00000000#32)
      (fun k => sageRow (Ideal.ofBits .f32 0x00000000#32) (fun j => S (ix2 p j)) (fun j => X (ix2 p j)) (recip e (ix2 p (0 : Fin 1)))
        (wT Wl) (wT Wr) (fun j => bRow b (ix2 (0 : Fin 1) j)) k)
      (wT W1) (fun j => bRow b1 (ix2 (0 : Fin 1) j)) q = _
  have hin : (fun k : Fin 128 => sageRow (Ideal.ofBits .f32 0x00000000#32) (fun j => S (ix2 p j)) (fun j => X (ix2 p j))
        (recip e (ix2 p (0 : Fin 1))) (wT Wl) (wT Wr) (fun j => bRow b (ix2 (0 : Fin 1) j)) k)
      = fun k : Fin 128 => sageOp S X (cnt e) Wl b Wr (ix2 p k) := funext fun k => congrFun (layer1_eq S X e Wl b Wr) (ix2 p k)
  rw [hin, show (fun j : Fin 128 => bRow b1 (ix2 (0 : Fin 1) j)) = fun j => b1 (ix1 j) from funext fun j => bRow_apply b1 j]
  exact linRow_eq _ _ (wT W1) W1 _ q (fun k => wT_apply W1 k q)

/-! ## The reference's stages that are the kernel's operations -/

section Stages

variable (x0 : (⟨Cert.KernelIdeal.S50000x128, .f32⟩ : BufTy).Contents (Elt Ideal)) (x1 : (⟨Cert.KernelIdeal.S128x128, .f32⟩ : BufTy).Contents (Elt Ideal)) (x2 : (⟨Cert.KernelIdeal.S128, .f32⟩ : BufTy).Contents (Elt Ideal))
    (x3 x4 : (⟨Cert.KernelIdeal.S128x128, .f32⟩ : BufTy).Contents (Elt Ideal)) (x5 : (⟨Cert.KernelIdeal.S128, .f32⟩ : BufTy).Contents (Elt Ideal)) (x6 : (⟨Cert.KernelIdeal.S128x128, .f32⟩ : BufTy).Contents (Elt Ideal))
    (x7 : (⟨Cert.KernelIdeal.S128, .f32⟩ : BufTy).Contents (Elt Ideal)) (x8 : (⟨Cert.KernelIdeal.S128x128, .f32⟩ : BufTy).Contents (Elt Ideal)) (x9 : (⟨Cert.KernelIdeal.S3x128, .f32⟩ : BufTy).Contents (Elt Ideal))
    (x10 : (⟨Cert.KernelIdeal.S3, .f32⟩ : BufTy).Contents (Elt Ideal)) (e : (⟨Cert.KernelIdeal.S2x600000, .i32⟩ : BufTy).Contents (Elt Ideal)) (g : (⟨Cert.KernelIdeal.S50000, .i32⟩ : BufTy).Contents (Elt Ideal))

/-- The reference's first neighbour sums. -/
theorem ref_agg : val_main_v13 (F := Ideal) x0 e = agg x0 e := rfl
/-- The reference's first count. -/
theorem ref_cnt : val_main_v17 (F := Ideal) e = cnt e := rfl
/-- The reference's second count. -/
theorem ref_cnt' : val_main_v51 (F := Ideal) e = cnt e := rfl
/-- The reference's second neighbour sums. -/
theorem ref_agg' : val_main_v47 (F := Ideal) x0 x1 x2 x3 x4 x5 e = agg (val_main_v37 (F := Ideal) x0 x1 x2 x3 x4 x5 e) e := rfl
/-- The reference's pooling and final layer. -/
theorem ref_tail : val_main_v82 (F := Ideal) x0 x1 x2 x3 x4 x5 x6 x7 x8 x9 x10 e g
    = tail (val_main_v65 (F := Ideal) x0 x1 x2 x3 x4 x5 x6 x7 x8 e) g x9 x10 := rfl

/-- The node array after the kernel's first region is the reference's after its linear layer. -/
theorem hidden_eq : hidden x0 x1 x2 x3 x4 x5 e = val_main_v37 (F := Ideal) x0 x1 x2 x3 x4 x5 e := by
  rw [stage_v37, stage_v31, ref_agg, ref_cnt]
  exact layer0_eq (agg x0 e) x0 e x1 x2 x3 x4 x5

/-- The node array after the kernel's second region is the reference's after its second graph layer. -/
theorem hidden2_eq : hidden2 (hidden x0 x1 x2 x3 x4 x5 e) x6 x7 x8 e = val_main_v65 (F := Ideal) x0 x1 x2 x3 x4 x5 x6 x7 x8 e := by
  rw [stage_v65, ref_agg', ref_cnt', hidden_eq]
  exact layer1_eq _ _ e x6 x7 x8

/-- The two results. -/
theorem result_eq : tail (hidden2 (hidden x0 x1 x2 x3 x4 x5 e) x6 x7 x8 e) g x9 x10
    = val_main_v82 (F := Ideal) x0 x1 x2 x3 x4 x5 x6 x7 x8 x9 x10 e g := by
  rw [ref_tail, hidden2_eq]

end Stages

end Cert.Bridge

end
-- ==== Proof.lean ====
/- The proof of `Cert.Claim` for a two-layer mean-aggregation graph network (two graph layers with a rectified linear layer between
   them, mean pooling over the graphs and a final linear layer) computed by two kernels among host operations, against its plain
   reference.
   The three frames: the two kernel programs terminate, nothing faulting, with their arguments as launched; the reference does too,
   being host operations only. Nothing is owed for the idealization: reading the kernel at the extended reals rewrote no operation.
   The value claim: at the extended reals the kernel program's result buffer ends at the pooling and final layer of its second
   region's node array (Proof/KernelRun.lean, Proof/KernelValue.lean over Proof/RegionValue.lean and Proof/BodyRows.lean), the
   reference's at the same operations of its own second graph layer, and the two node arrays are one array: node by node and
   column by column the kernel's arrangement of a graph layer's entry (a product with a reciprocal count, the two matrix products
   added before the bias, transposed weights) is the reference's (a quotient, the bias added first) on every extended real, because
   max(count, 1) is never zero (Proof/SageSpec.lean, Proof/RefLayers.lean, Proof/Bridge.lean). The inputs' finiteness is not used. -/
import proofs.«151611_j34531537060254_2_alg».proof.Defs
import proofs.«151611_j34531537060254_2_alg».proof.Proof.Gen.Kernel
import proofs.«151611_j34531537060254_2_alg».proof.Proof.Gen.Kernel.Skeleton
import proofs.«151611_j34531537060254_2_alg».proof.Proof.Gen.Kernel.Launch
import proofs.«151611_j34531537060254_2_alg».proof.Proof.Gen.Kernel.Points
import proofs.«151611_j34531537060254_2_alg».proof.Proof.Gen.Kernel.Frame
import proofs.«151611_j34531537060254_2_alg».proof.Proof.Gen.KernelIdeal
import proofs.«151611_j34531537060254_2_alg».proof.Proof.Gen.KernelIdeal.Skeleton
import proofs.«151611_j34531537060254_2_alg».proof.Proof.Gen.KernelIdeal.Launch
import proofs.«151611_j34531537060254_2_alg».proof.Proof.Gen.KernelIdeal.Points
import proofs.«151611_j34531537060254_2_alg».proof.Proof.Gen.KernelIdeal.Frame
import proofs.«151611_j34531537060254_2_alg».proof.Proof.Gen.ReferenceIdeal
import proofs.«151611_j34531537060254_2_alg».proof.Proof.Gen.ReferenceIdeal.Run
import proofs.«151611_j34531537060254_2_alg».proof.Proof.Gen.ReferenceIdeal.Read
import proofs.«151611_j34531537060254_2_alg».proof.Proof.Gen.Pre_finite_inputs
import proofs.«151611_j34531537060254_2_alg».proof.Proof.KernelRun
import proofs.«151611_j34531537060254_2_alg».proof.Proof.KernelValue
import proofs.«151611_j34531537060254_2_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- The kernel program read at the extended reals runs and leaves its arguments as launched. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation, so nothing is owed for it. -/
theorem preserves : Cert.preserves_Kernel_KernelIdeal := trivial

/-- From memories that agree on the thirteen arguments both programs run, and their results are equal, element by element, as
    extended reals: each is the pooling and final layer of one and the same node array. -/
theorem algebraic : Cert.algebraic_KernelIdeal_ReferenceIdeal := by
  intro m ρ m' ρ' _ hagree
  refine ⟨fun c => Cert.KernelIdeal.Gen.W5 m ρ c (Proc.devRef .tc Cert.KernelIdeal.main_v68),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  refine Eq.trans ?_ (Cert.KernelIdeal.Hand.result_value m ρ c).symm
  exact (Cert.Bridge.result_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
